-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x8192 : Shape := ⟨3, ![16, 1, 8192]⟩
abbrev S8192x32768 : Shape := ⟨2, ![8192, 32768]⟩
abbrev S32768 : Shape := ⟨1, ![32768]⟩
abbrev S_ : Shape := ⟨0, ![]⟩

class Facts : Prop where
  bcast_S_S16x1x8192 : S_.BroadcastsInDim S16x1x8192 (![] : Fin 0 → Fin S16x1x8192.rank)
  reducesTo_S16x1x8192_S_d0_1_2 : S16x1x8192.ReducesTo [0, 1, 2] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S16x1x8192 .f32) (main_arg1 : IVec S8192x32768 32) (main_arg2 : FVec F S32768 .f32) (main_arg3 : FVec F S32768 .f32) : IVec S_ 1 :=
  let main_v0 : FVec F S16x1x8192 .f32 := Host.absf main_arg0
  let main_cst : FVec F S_ .f32 := constant S_ .f32 0x7F800000#32
  let main_v1 : FVec F S16x1x8192 .f32 := broadcastInDim S16x1x8192 ![] bcast_S_S16x1x8192 main_cst
  let main_v2 : IVec S16x1x8192 1 := cmpf .olt main_v0 main_v1
  let main_c : IVec S_ 1 := constantI S_ 1 1#1
  let main_v3 : IVec S_ 1 := (fun x v => Host.reduce IntOp.andi x v reducesTo_S16x1x8192_S_d0_1_2 h_S_) main_v2 main_c
  let main_v4 : FVec F S32768 .f32 := Host.absf main_arg2
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  let main_v9 : FVec F S32768 .f32 := Host.absf main_arg3
  let main_cst_2 : FVec F S_ .f32 := constant S_ .f32 0x7F800000#32
  let main_v10 : FVec F S32768 .f32 := broadcastInDim S32768 ![] bcast_S_S32768 main_cst_2
  let main_v11 : IVec S32768 1 := cmpf .olt main_v9 main_v10
  let main_c_3 : IVec S_ 1 := constantI S_ 1 1#1
  let main_v12 : IVec S_ 1 := (fun x v => Host.reduce IntOp.andi x v reducesTo_S32768_S_d0 h_S_) main_v11 main_c_3
  let main_v13 : IVec S_ 1 := andi main_v8 main_v12
  main_v13
-- ==== Kernel.lean ====
abbrev S16x1x8192 : Shape := ⟨3, ![16, 1, 8192]⟩
abbrev S8192x32768 : Shape := ⟨2, ![8192, 32768]⟩
abbrev S32768 : Shape := ⟨1, ![32768]⟩
abbrev S16x1x32768 : Shape := ⟨3, ![16, 1, 32768]⟩
abbrev S8192x512 : Shape := ⟨2, ![8192, 512]⟩
abbrev S512 : Shape := ⟨1, ![512]⟩
abbrev S16x1x512 : Shape := ⟨3, ![16, 1, 512]⟩
abbrev S16x8192 : Shape := ⟨2, ![16, 8192]⟩
abbrev S16x512 : Shape := ⟨2, ![16, 512]⟩
abbrev S16 : Shape := ⟨1, ![16]⟩
abbrev S16x1 : Shape := ⟨2, ![16, 1]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S16x1x8192, .f32⟩
  | .hbm, ⟨1, _⟩ => ⟨S8192x32768, .i32⟩
  | .hbm, ⟨2, _⟩ => ⟨S32768, .f32⟩
  | .hbm, ⟨3, _⟩ => ⟨S32768, .f32⟩
  | .hbm, ⟨4, _⟩ => ⟨S16x1x32768, .f32⟩
  | .local _ .vmem, ⟨0, _⟩ => ⟨S16x1x8192, .f32⟩
  | .local _ .vmem, ⟨1, _⟩ => ⟨S8192x512, .i32⟩
  | .local _ .vmem, ⟨2, _⟩ => ⟨S8192x512, .i32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S16x1x512, .f32⟩
  | .local _ .vmem, ⟨8, _⟩ => ⟨S16x1x512, .f32⟩
  | _, _ => ⟨S16x1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S16x1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16x1x8192_S16x1x8192_0_0_0 : ∀ a, (![0, 0, 0] : Fin 3 → Nat) a + S16x1x8192.size a ≤ S16x1x8192.size a
  h_S16x1x8192 : 0 < S16x1x8192.numel
  shapeCasts_S16x1x8192_S16x8192 : S16x1x8192.ShapeCasts S16x8192
  bitsLt_bf16_f32 : FTy.bits .bf16 < FTy.bits .f32
  inb_S8192x512_S8192x512_0_0 : ∀ a, (![0, 0] : Fin 2 → Nat) a + S8192x512.size a ≤ S8192x512.size a
  h_S8192x512 : 0 < S8192x512.numel
  reduces_S16x8192_S16 : S16x8192.Reduces [1] S16
  shapeCasts_S16_S16x1 : S16.ShapeCasts S16x1
  inb_S512_S512_0 : ∀ a, (![0] : Fin 1 → Nat) a + S512.size a ≤ S512.size a
  h_S512 : 0 < S512.numel
  shapeCasts_S512_S1x512 : S512.ShapeCasts S1x512
  broadcasts_S1x512_S16x512 : S1x512.Broadcasts S16x512
  broadcasts_S16x1_S16x512 : S16x1.Broadcasts S16x512
  inb_S16x1x512_S16x1x512_0_0_0 : ∀ a, (![0, 0, 0] : Fin 3 → Nat) a + S16x1x512.size a ≤ S16x1x512.size a
  h_S16x1x512 : 0 < S16x1x512.numel
  shapeCasts_S16x1x512_S16x512 : S16x1x512.ShapeCasts S16x512
  shapeCasts_S16x512_S16x1x512 : S16x512.ShapeCasts S16x1x512
  dot_S16x8192_S8192x512_S16x512_1_0_0_1_n_n_wf : DotDims.WF S16x8192 S8192x512 S16x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x1x8192.size a ≤ S16x1x8192.size a
  hwx0_0 : ∀ i : grid0.Coords, EltTy.bits .f32 = 32 ∨ (Rect.block (s := S16x1x8192) S16x1x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x32768.size a
  hwx0_1 : ∀ i : grid0.Coords, EltTy.bits .i32 = 32 ∨ (Rect.block (s := S8192x32768) S8192x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S32768.size a
  hwx0_2 : ∀ i : grid0.Coords, EltTy.bits .f32 = 32 ∨ (Rect.block (s := S32768) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S32768.size a
  hwx0_3 : ∀ i : grid0.Coords, EltTy.bits .f32 = 32 ∨ (Rect.block (s := S32768) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x512.size a ≤ S16x1x32768.size a
  hwx0_4 : ∀ i : grid0.Coords, EltTy.bits .f32 = 32 ∨ (Rect.block (s := S16x1x32768) S16x1x512.size (cc0_transform_4 i) (hinb0_4 i)).WholeWords (EltTy.packing .f32)

variable [Facts₀]

def dot_S16x8192_S8192x512_S16x512_1_0_0_1_n_n : DotDims S16x8192 S8192x512 S16x512 where
  lhsContracting := [1]
  rhsContracting := [0]
  lhsNonContracting := [0]
  rhsNonContracting := [1]
  lhsBatch := []
  rhsBatch := []
  wf := dot_S16x8192_S8192x512_S16x512_1_0_0_1_n_n_wf

abbrev win0_0 : Pipeline.Window sig grid0 :=
  Pipeline.Window.ofSpec (Memref.whole main_arg0) S16x1x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1x8192 : Shape := ⟨3, ![16, 1, 8192]⟩
abbrev S8192x32768 : Shape := ⟨2, ![8192, 32768]⟩
abbrev S32768 : Shape := ⟨1, ![32768]⟩
abbrev S16x1x32768 : Shape := ⟨3, ![16, 1, 32768]⟩
abbrev S_ : Shape := ⟨0, ![]⟩
abbrev S16x1 : Shape := ⟨2, ![16, 1]⟩
abbrev S16x1x1 : Shape := ⟨3, ![16, 1, 1]⟩
abbrev S1x1x32768 : Shape := ⟨3, ![1, 1, 32768]⟩

abbrev nBuf : Space → Nat
  | .hbm => 17
  | .vmem => 0
  | .smem => 0
  | _ => 0

abbrev bufTy : (tb : Table) → Fin (tcTables nBuf tb) → BufTy
  | .hbm, ⟨0, _⟩ => ⟨S16x1x8192, .f32⟩
  | .hbm, ⟨1, _⟩ => ⟨S8192x32768, .i32⟩
  | .hbm, ⟨2, _⟩ => ⟨S32768, .f32⟩
  | .hbm, ⟨3, _⟩ => ⟨S32768, .f32⟩
  | .hbm, ⟨4, _⟩ => ⟨S8192x32768, .f32⟩
  | .hbm, ⟨5, _⟩ => ⟨S16x1x32768, .f32⟩
  | .hbm, ⟨6, _⟩ => ⟨S_, .f32⟩
  | .hbm, ⟨7, _⟩ => ⟨S16x1, .f32⟩
  | .hbm, ⟨8, _⟩ => ⟨S16x1x1, .f32⟩
  | .hbm, ⟨9, _⟩ => ⟨S1x1x32768, .f32⟩
  | .hbm, ⟨10, _⟩ => ⟨S16x1x32768, .f32⟩
  | .hbm, ⟨11, _⟩ => ⟨S16x1x32768, .f32⟩
  | .hbm, ⟨12, _⟩ => ⟨S1x1x32768, .f32⟩
  | .hbm, ⟨13, _⟩ => ⟨S16x1x32768, .f32⟩
  | .hbm, ⟨14, _⟩ => ⟨S16x1x32768, .f32⟩
  | .hbm, ⟨15, _⟩ => ⟨S16x1x32768, .f32⟩
  | .hbm, ⟨16, _⟩ => ⟨S16x1x32768, .f32⟩
  | _, _ => ⟨S16x1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S16x1x8192_S16x1_d2 : S16x1x8192.ReducesTo [2] S16x1
  h_S_ : 0 < S_.numel
  bcast_S16x1_S16x1x1_0_1 : S16x1.BroadcastsInDim S16x1x1 (![0, 1] : Fin 2 → Fin S16x1x1.rank)
  bcast_S32768_S1x1x32768_2 : S32768.BroadcastsInDim S1x1x32768 (![2] : Fin 1 → Fin S1x1x32768.rank)
  bcast_S1x1x32768_S16x1x32768_0_1_2 : S1x1x32768.BroadcastsInDim S16x1x32768 (![0, 1, 2] : Fin 3 → Fin S16x1x32768.rank)
  bcast_S16x1x1_S16x1x32768_0_1_2 : S16x1x1.BroadcastsInDim S16x1x32768 (![0, 1, 2] : Fin 3 → Fin S16x1x32768.rank)
  dot_S16x1x8192_S8192x32768_S16x1x32768_2_0_01_1_n_n_wf : DotDims.WF S16x1x8192 S8192x32768 S16x1x32768 [2] [0] [0, 1] [1] [] []

variable [Facts₀]

def dot_S16x1x8192_S8192x32768_S16x1x32768_2_0_01_1_n_n : DotDims S16x1x8192 S8192x32768 S16x1x32768 where
  lhsContracting := [2]
  rhsContracting := [0]
  lhsNonContracting := [0, 1]
  rhsNonContracting := [1]
  lhsBatch := []
  rhsBatch := []
  wf := dot_S16x1x8192_S8192x32768_S16x1x32768_2_0_01_1_n_n_wf

class Facts : Prop extends Facts₀ where

variable [Facts]
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMidUnit.lean ====
import Idealize.ShloMosaic.Lib.ValueLayout

/-!
# A unit axis in the middle

An array of shape `[a, 1, b]` and the array of shape `[a, b]` obtained by dropping its middle axis hold the same
entries in the same row-major order: the entry at `(i, 0, j)` of the one is the entry at `(i, j)` of the other.
So a shape cast in either direction, read at an index, reads the operand at the index with the same row and the
same column, whatever `a` and `b` are. This is how a batch of row vectors kept with a singleton time axis is
handed to, and taken back from, an operation on plain matrices.
-/

namespace Cert.LibMidUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u` is. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMidUnit
-- ==== Proof.Payload.lean ====
import proofs.«175797_j506806141434_1_alg».proof.Proof.Gen.KernelIdeal.Skeleton
import proofs.«175797_j506806141434_1_alg».proof.Proof.LibPlainDot
import proofs.«175797_j506806141434_1_alg».proof.Proof.LibColumn
import proofs.«175797_j506806141434_1_alg».proof.Proof.LibMidUnit
import Idealize.ShloMosaic.Lib.ValueLayout
import Idealize.ShloMosaic.PureOps.Ideal.Laws

/-!
# One tile of the kernel, entry by entry

At a grid point the kernel holds all of `y` (16 rows with a unit time axis, 8192 lanes), a tile of 512 columns of
the weights, and the matching 512 entries of `mrange` and `offset`. It drops the unit axis of `y`; multiplies the
rows, rounded to a narrower float format, by the tile converted to that format, into a zero accumulator; sums each
row's lanes; and stores, with the unit axis put back, the product times the `mrange` row plus the row-sum column
times the `offset` row. Over the extended reals a change of float format is the identity and an integer word
converts to the integer it denotes, so the stored entry at `(p, u, q)` is

  (∑ₖ y[p, u, k] · w[k, q]) · mrange[q] + (∑ₖ y[p, u, k]) · offset[q].
-/

noncomputable section

namespace Cert.KernelIdeal.Tile

open Cert.KernelIdeal Cert.KernelIdeal.Gen Idealize.ShloMosaic Idealize.ShloMosaic.ValueIdx
open scoped BigOperators

/-- The stored tile at `(p, u, q)`, from the four loaded blocks. -/
theorem pay_apply (x0 : Vec Ideal S16x1x8192 .f32) (x1 : Vec Ideal S8192x512 .i32) (x2 x3 : Vec Ideal S512 .f32)
    (p : Fin 16) (u : Fin 1) (q : Fin 512) :
    k0_pay1 (F := Ideal) x0 x1 x2 x3 (ix3 p u q)
      = (∑ k : Fin 8192, x0 (ix3 p u k) * (((x1 (ix2 k q)).toInt : ℝ) : EReal)) * x2 (ix1 q)
        + (∑ k : Fin 8192, x0 (ix3 p u k)) * x3 (ix1 q) := by
  -- the time axis has one coordinate
  obtain rfl : u = 0 := Subsingleton.elim u 0
  unfold k0_pay1
  -- the unit axis put back, then the sum of two products, entry by entry
  refine (Cert.LibMidUnit.shapeCast_ab_a1b_apply _ _ p 0 q).trans ?_
  refine (addf_apply _ _ _).trans ?_
  refine congrArg₂ (· + ·) ((mulf_apply _ _ _).trans (congrArg₂ (· * ·) ?_ ?_)) ((mulf_apply _ _ _).trans (congrArg₂ (· * ·) ?_ ?_))
  · -- the product into a zero accumulator is the plain sum over the lanes; the rows are y with its unit axis dropped
    refine (Cert.LibPlainDot.matmul_zero_apply _ ⟨rfl, rfl, rfl, rfl, rfl, rfl⟩ none _ _ p q).trans ?_
    refine Finset.sum_congr rfl fun k _ => ?_
    exact congrArg₂ (· * ·) (Cert.LibMidUnit.shapeCast_a1b_ab_apply x0 _ p k) rfl
  · -- the mrange row, repeated down the 16 rows
    exact (broadcastTo_1b_ab_apply _ _ p q).trans (shapeCast_a_1a_apply x2 _ 0 q)
  · -- the lane sums as a column, repeated across the 512 columns
    refine (Cert.LibColumn.broadcastTo_a1_ab_apply _ _ p q).trans ?_
    refine (Cert.LibColumn.shapeCast_a_a1_apply _ _ p 0).trans ?_
    refine (Ideal.multiReduction_add_single _ _ reduces_S16x8192_S16 _ _ (ix1 p)).trans ?_
    refine Finset.sum_congr rfl fun k _ => ?_
    have hk : reduces_S16x8192_S16.lift (ix1 p) k = ix2 p k := funext fun a => Fin.ext (by
      match a with | ⟨0, _⟩ => rfl | ⟨1, _⟩ => rfl)
    rw [hk]
    exact Cert.LibMidUnit.shapeCast_a1b_ab_apply x0 _ p k
  · -- the offset row, repeated down the 16 rows
    exact (broadcastTo_1b_ab_apply _ _ p q).trans (shapeCast_a_1a_apply x3 _ 0 q)

end Cert.KernelIdeal.Tile

end
-- ==== Proof.Spec.lean ====
import Idealize.ShloMosaic.Lib.ValueIdx
import Idealize.ShloMosaic.PureOps.Ideal

/-!
# The dequantised product, entry by entry

A batch of 16 row vectors `y` of length 8192 is multiplied by a quantised weight matrix `w` of 8192 × 32768 signed
integer words, each column `n` of which stands for the real column `w[·, n] · mrange[n] + offset[n]`. Multiplying out,

  ∑ₖ y[b, k] · (w[k, n] · mrange[n] + offset[n])  =  (∑ₖ y[b, k] · w[k, n]) · mrange[n] + (∑ₖ y[b, k]) · offset[n],

and it is the right-hand, factored form that both programs compute: the integer product first, then one scale and
one shift per column. This module states that factored form as ONE function of the four argument arrays, over the
extended reals, with an integer word read as the integer it denotes in two's complement. The batch carries a
singleton time axis `u`, kept in the indices.
-/

noncomputable section

namespace Cert.Dequant

open Idealize.ShloMosaic Idealize.ShloMosaic.ValueIdx
open scoped BigOperators

/-- The entry for row `b` (time `u`) and column `n`: the row's product with the integer column, scaled by the
    column's range, plus the row's sum times the column's offset. -/
def entry (y : (⟨3, ![16, 1, 8192]⟩ : Shape).Idx → EReal) (w : (⟨2, ![8192, 32768]⟩ : Shape).Idx → BitVec 32)
    (mr off : (⟨1, ![32768]⟩ : Shape).Idx → EReal) (b : Fin 16) (u : Fin 1) (n : Fin 32768) : EReal :=
  (∑ k : Fin 8192, y (ix3 b u k) * (((w (ix2 k n)).toInt : ℝ) : EReal)) * mr (ix1 n)
    + (∑ k : Fin 8192, y (ix3 b u k)) * off (ix1 n)

/-- The whole result array: `entry` at each index's three coordinates. -/
def out (y : (⟨3, ![16, 1, 8192]⟩ : Shape).Idx → EReal) (w : (⟨2, ![8192, 32768]⟩ : Shape).Idx → BitVec 32)
    (mr off : (⟨1, ![32768]⟩ : Shape).Idx → EReal) : (⟨3, ![16, 1, 32768]⟩ : Shape).Idx → EReal :=
  fun i => entry y w mr off (i 0) (i 1) (i 2)

theorem out_apply (y : (⟨3, ![16, 1, 8192]⟩ : Shape).Idx → EReal) (w : (⟨2, ![8192, 32768]⟩ : Shape).Idx → BitVec 32)
    (mr off : (⟨1, ![32768]⟩ : Shape).Idx → EReal) (b : Fin 16) (u : Fin 1) (n : Fin 32768) :
    out y w mr off (ix3 b u n) = entry y w mr off b u n := rfl

end Cert.Dequant

end
-- ==== Proof.Blocks.lean ====
import proofs.«175797_j506806141434_1_alg».proof.Proof.Gen.KernelIdeal.Value
import proofs.«175797_j506806141434_1_alg».proof.Proof.Payload
import proofs.«175797_j506806141434_1_alg».proof.Proof.Spec

/-!
# From the tiles to the whole array

The grid has 64 points. Point `t` sees all of `y`, the 512 columns `512·t … 512·t + 511` of the weights and of the two
per-column vectors, and writes back the same 512 columns of the result. So the tile stored at point `t`, at
`(p, u, q)`, is the dequantised product's entry at `(p, u, 512·t + q)`: what point `t` writes back is block `t` of
that one function of the argument arrays. Column `n` lies in the block of point `n / 512`, so the 64 blocks cover the
result, and after the run the result array holds the dequantised product everywhere.
-/

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- Column `q` of tile `tv` is column `512·tv + q` of the array. -/
def col (tv : Nat) (htv : tv < 64) (q : Fin 512) : Fin 32768 := ⟨tv * 512 + q.val, by have := q.isLt; omega⟩

/-- A stored tile is the matching block of the dequantised product: if the loaded blocks are all of `y`, and
    columns `512·tv …` of the weights, of `mrange` and of `offset`, the tile's entry at `(p, u, q)` is the product's
    entry at `(p, u, 512·tv + q)`. -/
theorem tile_eq (y : (⟨3, ![16, 1, 8192]⟩ : Shape).Idx → EReal) (w : (⟨2, ![8192, 32768]⟩ : Shape).Idx → BitVec 32)
    (mr off : (⟨1, ![32768]⟩ : Shape).Idx → EReal)
    (x0 : Vec Ideal S16x1x8192 .f32) (x1 : Vec Ideal S8192x512 .i32) (x2 x3 : Vec Ideal S512 .f32) (tv : Nat) (htv : tv < 64)
    (h0 : ∀ (p : Fin 16) (u : Fin 1) (k : Fin 8192), x0 (ix3 p u k) = y (ix3 p u k))
    (h1 : ∀ (k : Fin 8192) (q : Fin 512), x1 (ix2 k q) = w (ix2 k (col tv htv q)))
    (h2 : ∀ q : Fin 512, x2 (ix1 q) = mr (ix1 (col tv htv q)))
    (h3 : ∀ q : Fin 512, x3 (ix1 q) = off (ix1 (col tv htv q)))
    (p : Fin 16) (u : Fin 1) (q : Fin 512) :
    k0_pay1 (F := Ideal) x0 x1 x2 x3 (ix3 p u q) = Cert.Dequant.entry y w mr off p u (col tv htv q) := by
  rw [Cert.KernelIdeal.Tile.pay_apply]
  unfold Cert.Dequant.entry
  simp only [h0, h1, h2, h3]

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The index maps, decided over the 64 points: `y` is always block 0; the weights, the two vectors and the result
    move along their column axis with the point. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = t.val
    ∧ win0_2.index t (0 : Fin 1) = t.val ∧ win0_3.index t (0 : Fin 1) = t.val
    ∧ win0_4.index t (0 : Fin 3) = 0 ∧ win0_4.index t (1 : Fin 3) = 0 ∧ win0_4.index t (2 : Fin 3) = t.val :=
  (by decide +kernel : ∀ t : Fin grid0.N, _)

/-- What point `t` writes back is block `t` of the dequantised product of the argument arrays. -/
theorem flushed_eq (c : Dev nD) (t : Fin cfg0.N) :
    (dats m 0 c).flushed 4 t = ((cfg0.win 4).blk t).view.read (Elt Ideal)
      (Cert.Dequant.out (V m c main_arg0) (V m c main_arg1) (V m c main_arg2) (V m c main_arg3)) := by
  rw [Cert.KernelIdeal.Value.flushed4]
  unfold out0_4
  rw [View.canon_unit_zero zero3]
  simp only [View.ld_unit_zero (S := S16x1x8192) zero3, View.ld_unit_zero (S := S8192x512) zero2, View.ld_unit_zero (S := S512) zero1]
  obtain ⟨a0, a1, a2, b0, b1, c0, d0, o0, o1, o2⟩ := idx_facts t
  have ht : t.val < 64 := by have h : t.val < grid0.N := t.isLt; rw [N_0] at h; exact h
  -- each input block, read where the tile's arithmetic reads it
  have h0 : ∀ (p : Fin 16) (u : Fin 1) (k : Fin 8192), iblk m c 0 t (ix3 p u k) = V m c main_arg0 (ix3 p u k) := fun p u k => by
    show V m c main_arg0 (((cfg0.win 0).blk t).view.emb (ix3 p u k)) = _
    refine congrArg (V m c main_arg0) (funext fun a => Fin.ext ?_)
    match a with
    | ⟨0, _⟩ => show win0_0.index t (0 : Fin 3) * 16 + 1 * p.val = p.val; omega
    | ⟨1, _⟩ => show win0_0.index t (1 : Fin 3) * 1 + 1 * u.val = u.val; omega
    | ⟨2, _⟩ => show win0_0.index t (2 : Fin 3) * 8192 + 1 * k.val = k.val; omega
  have h1 : ∀ (k : Fin 8192) (q : Fin 512), iblk m c 1 t (ix2 k q) = V m c main_arg1 (ix2 k (col t.val ht q)) := fun k q => by
    show V m c main_arg1 (((cfg0.win 1).blk t).view.emb (ix2 k q)) = _
    refine congrArg (V m c main_arg1) (funext fun a => Fin.ext ?_)
    match a with
    | ⟨0, _⟩ => show win0_1.index t (0 : Fin 2) * 8192 + 1 * k.val = k.val; omega
    | ⟨1, _⟩ => show win0_1.index t (1 : Fin 2) * 512 + 1 * q.val = t.val * 512 + q.val; omega
  have h2 : ∀ q : Fin 512, iblk m c 2 t (ix1 q) = V m c main_arg2 (ix1 (col t.val ht q)) := fun q => by
    show V m c main_arg2 (((cfg0.win 2).blk t).view.emb (ix1 q)) = _
    refine congrArg (V m c main_arg2) (funext fun a => Fin.ext ?_)
    match a with
    | ⟨0, _⟩ => show win0_2.index t (0 : Fin 1) * 512 + 1 * q.val = t.val * 512 + q.val; omega
  have h3 : ∀ q : Fin 512, iblk m c 3 t (ix1 q) = V m c main_arg3 (ix1 (col t.val ht q)) := fun q => by
    show V m c main_arg3 (((cfg0.win 3).blk t).view.emb (ix1 q)) = _
    refine congrArg (V m c main_arg3) (funext fun a => Fin.ext ?_)
    match a with
    | ⟨0, _⟩ => show win0_3.index t (0 : Fin 1) * 512 + 1 * q.val = t.val * 512 + q.val; omega
  refine funext fun (j : S16x1x512.Idx) => ?_
  obtain ⟨p, u, q, rfl⟩ : ∃ (p : Fin 16) (u : Fin 1) (q : Fin 512), j = ix3 p u q := ⟨j 0, j 1, j 2, eq_ix3 j⟩
  -- the tile's entry sits in the array at the same row and time, column 512·t + q
  have hemb : ((cfg0.win 4).blk t).view.emb (ix3 p u q) = ix3 p u (col t.val ht q) := funext fun a => Fin.ext (by
    match a with
    | ⟨0, _⟩ => show win0_4.index t (0 : Fin 3) * 16 + 1 * p.val = p.val; omega
    | ⟨1, _⟩ => show win0_4.index t (1 : Fin 3) * 1 + 1 * u.val = u.val; omega
    | ⟨2, _⟩ => show win0_4.index t (2 : Fin 3) * 512 + 1 * q.val = t.val * 512 + q.val; omega)
  show k0_pay1 (F := Ideal) (iblk m c 0 t) (iblk m c 1 t) (iblk m c 2 t) (iblk m c 3 t) (ix3 p u q)
    = Cert.Dequant.out (V m c main_arg0) (V m c main_arg1) (V m c main_arg2) (V m c main_arg3) (((cfg0.win 4).blk t).view.emb (ix3 p u q))
  rw [hemb, Cert.Dequant.out_apply]
  exact tile_eq (V m c main_arg0) (V m c main_arg1) (V m c main_arg2) (V m c main_arg3)
    (iblk m c 0 t) (iblk m c 1 t) (iblk m c 2 t) (iblk m c 3 t) t.val ht h0 h1 h2 h3 p u q

/-- An index of the result is in point `t`'s block iff each coordinate is in the block's range on its axis. -/
theorem mem_blk (t : Fin cfg0.N) (i : S16x1x32768.Idx) :
    i ∈ ((cfg0.win 4).blk t).view.set ↔ ∀ a : Fin 3, win0_4.index t a * S16x1x512.size a ≤ (i a).val ∧ (i a).val < win0_4.index t a * S16x1x512.size a + S16x1x512.size a := by
  show i ∈ ((View.whole main_v0).slice (win0_4.rect t)).set ↔ _
  rw [View.set_slice_whole, Rect.mem_set_unit]
  exact Iff.rfl

/-- Every index of the result is in some point's block: column `n` in that of point `n / 512`. -/
theorem cover (i : S16x1x32768.Idx) : ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 32768 := (i 2).isLt
  have hN : grid0.N = 64 := N_0
  have hlt : (i 2).val / 512 < grid0.N := by rw [hN]; omega
  obtain ⟨t, htv⟩ : ∃ t : Fin cfg0.N, t.val = (i 2).val / 512 := ⟨⟨(i 2).val / 512, hlt⟩, rfl⟩
  refine ⟨t, flush0_4 t, ?_⟩
  rw [mem_blk]
  obtain ⟨-, -, -, -, -, -, -, o0, o1, o2⟩ := idx_facts t
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 1 ≤ (i 1).val ∧ (i 1).val < win0_4.index t (1 : Fin 3) * 1 + 1; omega
  | ⟨2, _⟩ => show win0_4.index t (2 : Fin 3) * 512 ≤ (i 2).val ∧ (i 2).val < win0_4.index t (2 : Fin 3) * 512 + 512; omega

/-- After the run the result array is the dequantised product of the argument arrays as launched. -/
theorem final (c : Dev nD) : (dats m 0 c).arrAt 4 cfg0.N
    = Cert.Dequant.out (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- The kernel's run: the result at the dequantised product, the arguments unchanged. -/
theorem run : θ_run defs (onTc (τ := τ) (main (F := Ideal))) ⟨m, fun _ => 0, ρ⟩ fun r => ∀ c : Dev nD,
      r.2.mem ((c : Thread nD τ).loc main_v0)
        = Cert.Dequant.out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.RefIsSpec.lean ====
import proofs.«175797_j506806141434_1_alg».proof.Proof.Gen.ReferenceIdeal.Read
import proofs.«175797_j506806141434_1_alg».proof.Proof.Spec

/-!
# The reference computes the factored form

Read one operation at a time, the reference's result at an index `(b, u, n)` is: the contraction of row `(b, u)` of
`y` with column `n` of the weights converted to floats, times `mrange` broadcast from its column `n`; plus the
sum of that row (started from the float zero) kept as a `[16, 1, 1]` array and broadcast back, times `offset`
broadcast from its column `n`. Converting an integer word to a float is, over the extended reals, reading it as the
integer it denotes; the float zero is the real zero, so the started sum is the plain sum. That is the dequantised
product's factored form at `(b, u, n)`.
-/

noncomputable section

namespace Cert.ReferenceIdeal.RefValue

open Cert.ReferenceIdeal Cert.ReferenceIdeal.Read Idealize.ShloMosaic Idealize.ShloMosaic.ValueIdx
open scoped BigOperators

/-- The reference's last stage is the factored form of the four argument arrays. -/
theorem ref_eq (x0 : (⟨S16x1x8192, .f32⟩ : BufTy).Contents (Elt Ideal)) (x1 : (⟨S8192x32768, .i32⟩ : BufTy).Contents (Elt Ideal))
    (x2 x3 : (⟨S32768, .f32⟩ : BufTy).Contents (Elt Ideal)) :
    val_main_v11 (F := Ideal) x0 x1 x2 x3 = Cert.Dequant.out x0 x1 x2 x3 := by
  funext i
  -- the contraction reads row (b, u) of y against column n of the weights
  have e1 : ∀ k : Fin 8192, lidx_main_v1 i k = ix3 (i 0) (i 1) k := fun k => funext fun a => Fin.ext (by
    match a with | ⟨0, _⟩ => rfl | ⟨1, _⟩ => rfl | ⟨2, _⟩ => rfl)
  have e2 : ∀ k : Fin 8192, ridx_main_v1 i k = ix2 k (i 2) := fun k => funext fun a => Fin.ext (by
    match a with | ⟨0, _⟩ => rfl | ⟨1, _⟩ => rfl)
  -- the row sum, kept with unit axes and broadcast back, is read at the same row; its time coordinate is the only one
  have hu : (i 1).val = 0 := by have h : (i 1).val < 1 := (i 1).isLt; omega
  have e3 : ∀ k : Fin 8192, idx_main_v2 (idx_main_v3 (idx_main_v8 i)) k = ix3 (i 0) (i 1) k := fun k => funext fun a => Fin.ext (by
    match a with | ⟨0, _⟩ => rfl | ⟨1, _⟩ => exact hu.symm | ⟨2, _⟩ => rfl)
  -- both per-column vectors are read at column n
  have e4 : idx_main_v4 (idx_main_v5 i) = ix1 (i 2) := funext fun a => Fin.ext (by match a with | ⟨0, _⟩ => rfl)
  have e5 : idx_main_v7 (idx_main_v9 i) = ix1 (i 2) := funext fun a => Fin.ext (by match a with | ⟨0, _⟩ => rfl)
  rw [val_main_v11_apply, val_main_v6_apply, val_main_v10_apply, val_main_v1_apply, val_main_v5_apply, val_main_v4_apply,
    val_main_v8_apply, val_main_v3_apply, val_main_v2_apply, val_main_v9_apply, val_main_v7_apply]
  simp only [e1, e2, e3, e4, e5, val_main_v0_apply, val_main_cst_apply, Ideal.ofBits_def, Ideal.ofBits_zero_f32, zero_add,
    Ideal.mulf_def, Ideal.addf_def]
  rfl

end Cert.ReferenceIdeal.RefValue

end
-- ==== Proof.lean ====
/-
  A weight-only quantised matrix product with one range and one offset per output column, over f32[16, 1, 8192] rows `y`,
  i32[8192, 32768] weight words `w` and f32[32768] vectors `mrange`, `offset`:

    out[b, u, n] = (∑ₖ y[b, u, k] · w[k, n]) · mrange[n] + (∑ₖ y[b, u, k]) · offset[n].

  The kernel walks the 32768 columns in 64 tiles of 512. At each tile it multiplies the rows (with their unit axis dropped,
  rounded to a narrower float format) by the tile's weight words converted to that format, into a zero accumulator; sums each
  row's lanes; scales the product by the tile's `mrange` entries and adds the row sums times the tile's `offset` entries. The
  reference converts the whole weight array to floats, contracts `y` with it in one product, sums the rows from a float zero,
  and applies the same scale and shift through broadcasts.

  Over the extended reals a change of float format is the identity, an integer word converts to the integer it denotes
  whatever the target format, a product into a zero accumulator and a whole contraction are both the plain sum over the 8192
  lanes, a lane sum is the plain sum, and the float zero is the real zero. So both programs compute the right-hand side above,
  in the same arrangement: the two sides are made equal by reading each at an index, with no law of arithmetic beyond
  `0 + s = s`, and in particular without using that the inputs are finite. The kernel's tiles are blocks of that one function
  (tile `t`, column `q` is column `512·t + q`), and the 64 blocks cover the result.

  The three frames are the programs' generated runs. The kernel read over the extended reals is its printed text with no
  operation rewritten, so there is nothing to preserve between the two readings.
-/
import proofs.«175797_j506806141434_1_alg».proof.Defs
import proofs.«175797_j506806141434_1_alg».proof.Proof.Gen.Kernel
import proofs.«175797_j506806141434_1_alg».proof.Proof.Gen.Kernel.Frame
import proofs.«175797_j506806141434_1_alg».proof.Proof.Gen.KernelIdeal
import proofs.«175797_j506806141434_1_alg».proof.Proof.Gen.KernelIdeal.Frame
import proofs.«175797_j506806141434_1_alg».proof.Proof.Gen.ReferenceIdeal
import proofs.«175797_j506806141434_1_alg».proof.Proof.Gen.Pre_finite_inputs
import proofs.«175797_j506806141434_1_alg».proof.Proof.Gen.KernelIdeal.Value
import proofs.«175797_j506806141434_1_alg».proof.Proof.Gen.ReferenceIdeal.Run
import proofs.«175797_j506806141434_1_alg».proof.Proof.Gen.ReferenceIdeal.Read
import proofs.«175797_j506806141434_1_alg».proof.Proof.Blocks
import proofs.«175797_j506806141434_1_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From memories that agree on the four arguments, the kernel's result array and the reference's both end at the
    dequantised product of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
